-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S2048x1024 : Shape := ⟨2, ![2048, 1024]⟩
abbrev S1024x1024 : Shape := ⟨2, ![1024, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S32768x1024 .f32) (main_arg1 : FVec F S32768x1024 .f32) (main_arg2 : FVec F S2048x1024 .f32) (main_arg3 : FVec F S1024x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S32768x1024 : Shape := ⟨2, ![32768, 1024]⟩
abbrev S2048x1024 : Shape := ⟨2, ![2048, 1024]⟩
abbrev S1024x1024 : Shape := ⟨2, ![1024, 1024]⟩
abbrev S2048 : Shape := ⟨1, ![2048]⟩
abbrev S_ : Shape := ⟨0, ![]⟩
abbrev S32768 : Shape := ⟨1, ![32768]⟩
abbrev S128x1024 : Shape := ⟨2, ![128, 1024]⟩
abbrev S128 : Shape := ⟨1, ![128]⟩

abbrev nBuf : Space → Nat
  | .hbm => 23
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2048x1024, .f32⟩
  | .hbm, ⟨3, _⟩ => ⟨S1024x1024, .f32⟩
  | .hbm, ⟨4, _⟩ => ⟨S1024x1024, .bf16⟩
  | .hbm, ⟨5, _⟩ => ⟨S2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32768, .f32⟩
  | .hbm, ⟨17, _⟩ => ⟨S32768, .f32⟩
  | .hbm, ⟨18, _⟩ => ⟨S32768, .f32⟩
  | .hbm, ⟨19, _⟩ => ⟨S32768, .f32⟩
  | .hbm, ⟨20, _⟩ => ⟨S32768, .f32⟩
  | .hbm, ⟨21, _⟩ => ⟨S32768, .f32⟩
  | .hbm, ⟨22, _⟩ => ⟨S32768, .f32⟩
  | .local _ .vmem, ⟨0, _⟩ => ⟨S2048x1024, .f32⟩
  | .local _ .vmem, ⟨1, _⟩ => ⟨S1024x1024, .bf16⟩
  | .local _ .vmem, ⟨2, _⟩ => ⟨S2048, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S1024x1024, .bf16⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

@[reducible] def k1_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c128_i32 : BitVec 32 := 128#32
  let v3 : BitVec 32 := Scalar.muli arg6 c128_i32
  v3
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c128_i32 : BitVec 32 := 128#32
  let v3 : BitVec 32 := Scalar.muli arg6 c128_i32
  let v4 : BitVec 32 := v3
  let v5 : Index := Scalar.indexCast v4
  let c0_2 : Index := 0#32
  ![v5.toNat, 0]
def k1_off2 (k1_t1 : Fin k1_t1_loop.trips) : Fin 1 → Nat :=
  let c0_i32 : BitVec 32 := 0#32
  let c1_i32 : BitVec 32 := 1#32
  let arg6 : BitVec 32 := Scf.iv c0_i32 c1_i32 k1_t1
  let c128_i32 : BitVec 32 := 128#32
  let v3 : BitVec 32 := Scalar.muli arg6 c128_i32
  let v4 : BitVec 32 := v3
  let v17 : Index := Scalar.indexCast v4
  ![v17.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S2048x1024_S2048 : S2048x1024.Reduces [1] S2048
  inb_S2048_S2048_0 : ∀ a, (![0] : Fin 1 → Nat) a + S2048.size a ≤ S2048.size a
  h_S2048 : 0 < S2048.numel
  reducesTo_S2048_S_d0 : S2048.ReducesTo [0] S_
  h_S_ : 0 < S_.numel
  h_S128x1024 : 0 < S128x1024.numel
  reduces_S128x1024_S128 : S128x1024.Reduces [1] S128
  h_S128 : 0 < S128.numel
  bcast_S_S32768 : S_.BroadcastsInDim S32768 (![] : Fin 0 → Fin S32768.rank)
  dot_S2048x1024_S1024x1024_S2048x1024_1_0_0_1_n_n_wf : DotDims.WF S2048x1024 S1024x1024 S2048x1024 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .f32 = 32 ∨ (Rect.block (s := S2048x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S128x1024.size a ≤ S2048x1024.size a
  k1_off2_inb : ∀ k1_t1 : Fin k1_t1_loop.trips, ∀ a, (k1_off2 k1_t1) a + S128.size a ≤ S2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S32768x1024.size a
  hwx1_0 : ∀ i : grid1.Coords, EltTy.bits .f32 = 32 ∨ (Rect.block (s := S32768x1024) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S32768x1024.size a
  hwx1_1 : ∀ i : grid1.Coords, EltTy.bits .f32 = 32 ∨ (Rect.block (s := S32768x1024) S2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048.size a ≤ S32768.size a
  hwx1_3 : ∀ i : grid1.Coords, EltTy.bits .f32 = 32 ∨ (Rect.block (s := S32768) S2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048.size a ≤ S32768.size a
  hwx1_4 : ∀ i : grid1.Coords, EltTy.bits .f32 = 32 ∨ (Rect.block (s := S32768) S2048.size (cc1_transform_4 i) (hinb1_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg2) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32768x1024 : Shape := ⟨2, ![32768, 1024]⟩
abbrev S2048x1024 : Shape := ⟨2, ![2048, 1024]⟩
abbrev S1024x1024 : Shape := ⟨2, ![1024, 1024]⟩
abbrev S_ : Shape := ⟨0, ![]⟩
abbrev S2048 : Shape := ⟨1, ![2048]⟩
abbrev S32768 : Shape := ⟨1, ![32768]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768, .f32⟩
  | .hbm, ⟨26, _⟩ => ⟨S32768, .f32⟩
  | .hbm, ⟨27, _⟩ => ⟨S32768, .f32⟩
  | .hbm, ⟨28, _⟩ => ⟨S32768, .f32⟩
  | .hbm, ⟨29, _⟩ => ⟨S32768, .f32⟩
  | .hbm, ⟨30, _⟩ => ⟨S32768, .f32⟩
  | .hbm, ⟨31, _⟩ => ⟨S32768, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  reducesTo_S2048_S_d0 : S2048.ReducesTo [0] S_
  reducesTo_S32768x1024_S32768_d1 : S32768x1024.ReducesTo [1] S32768
  bcast_S_S32768 : S_.BroadcastsInDim S32768 (![] : Fin 0 → Fin S32768.rank)
  dot_S2048x1024_S1024x1024_S2048x1024_1_0_0_1_n_n_wf : DotDims.WF S2048x1024 S1024x1024 S2048x1024 [1] [0] [0] [1] [] []
  dot_S32768x1024_S1024x1024_S32768x1024_1_0_0_1_n_n_wf : DotDims.WF S32768x1024 S1024x1024 S32768x1024 [1] [0] [0] [1] [] []

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.KernelRun.lean ====
/-
  The idealized kernel's run, with its result named. The program is five segments: a host stretch (the weights' change of
  format), the calibration launch, a host stretch (maximum, minimum and the two affine coefficients), the main launch, and a
  host stretch (the final combination). Every weakly fair execution terminates with every unscoped buffer at the contents the
  last boundary names; read at the result buffer and at the four arguments, that is the statement below: the result holds
  the last boundary's contents, the arguments what they held at launch.
-/
import proofs.«110886_j63453846831506_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the contents of the
    last boundary and the four argument arrays end as launched. -/
theorem run : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v13 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Result

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.Spec.lean ====
/-
  The quantities both programs compute, over the extended reals.

  For a matrix `X` with `n` rows and 1024 columns and a square weight matrix `Wm`:
  * `rowSq X Wm r` is the squared Euclidean norm of row `r` of the product `X · Wm`: the sum over the output column `d` of
    the square of `∑ e, X (r, e) * Wm (e, d)`;
  * `rowDot Y r` is the squared norm of row `r` of `Y`: `∑ d, Y (r, d) * Y (r, d)`.
  The calibration vector holds `rowSq · rowSq` (the fourth power of the norm) of the calibration rows; from its maximum and
  minimum the programs compute two scalars, `slope = c₁ / (max − min)` and `shift = c₂ − slope · min`, by the same host
  operations on the same literals: they are stated here once, as functions of the vector, and are never opened.
  The result at row `b` is `slope · (rowSq⁴ · rowDot) + shift · rowDot` in one program and
  `(slope · rowSq⁴ + shift) · rowDot` in the other.
-/
import Idealize.ShloMosaic.Lib.ValueIdx
import Idealize.ShloMosaic.Lib.Pipeline.Value
import Idealize.ShloMosaic.PureOps.Ideal

noncomputable section

namespace Cert.Kinetic

open Idealize.ShloMosaic Idealize.ShloMosaic.ValueIdx

/-- The squared norm of row `r` of the product `X · Wm`. -/
def rowSq {n : ℕ} (X : (⟨2, ![n, 1024]⟩ : Shape).Idx → EReal) (Wm : (⟨2, ![1024, 1024]⟩ : Shape).Idx → EReal) (r : Fin n) : EReal :=
  ∑ d : Fin 1024, (∑ e : Fin 1024, X (ix2 r e) * Wm (ix2 e d)) * (∑ e : Fin 1024, X (ix2 r e) * Wm (ix2 e d))

/-- The squared norm of row `r` of `Y`. -/
def rowDot {n : ℕ} (Y : (⟨2, ![n, 1024]⟩ : Shape).Idx → EReal) (r : Fin n) : EReal :=
  ∑ d : Fin 1024, Y (ix2 r d) * Y (ix2 r d)

/-- The first quantity a launch of the main kernel writes at row `r`: the fourth power of the product row's norm times the
    squared norm of the second operand's row. -/
def rowProd {n : ℕ} (X Y : (⟨2, ![n, 1024]⟩ : Shape).Idx → EReal) (Wm : (⟨2, ![1024, 1024]⟩ : Shape).Idx → EReal) (r : Fin n) : EReal :=
  (rowSq X Wm r * rowSq X Wm r) * rowDot Y r

/-- `rowSq` reads only row `r` of its first argument. -/
theorem rowSq_congr {n n' : ℕ} {X : (⟨2, ![n, 1024]⟩ : Shape).Idx → EReal} {X' : (⟨2, ![n', 1024]⟩ : Shape).Idx → EReal}
    {Wm Wm' : (⟨2, ![1024, 1024]⟩ : Shape).Idx → EReal} {r : Fin n} {r' : Fin n'}
    (hX : ∀ e, X (ix2 r e) = X' (ix2 r' e)) (hW : ∀ e d, Wm (ix2 e d) = Wm' (ix2 e d)) :
    rowSq X Wm r = rowSq X' Wm' r' := by
  unfold rowSq
  refine Finset.sum_congr rfl fun d _ => ?_
  have h : (∑ e : Fin 1024, X (ix2 r e) * Wm (ix2 e d)) = ∑ e : Fin 1024, X' (ix2 r' e) * Wm' (ix2 e d) :=
    Finset.sum_congr rfl fun e _ => by rw [hX e, hW e d]
  rw [h]

/-- `rowDot` reads only row `r` of its argument. -/
theorem rowDot_congr {n n' : ℕ} {Y : (⟨2, ![n, 1024]⟩ : Shape).Idx → EReal} {Y' : (⟨2, ![n', 1024]⟩ : Shape).Idx → EReal}
    {r : Fin n} {r' : Fin n'} (hY : ∀ d, Y (ix2 r d) = Y' (ix2 r' d)) : rowDot Y r = rowDot Y' r' := by
  unfold rowDot
  exact Finset.sum_congr rfl fun d _ => by rw [hY d]

/-- Both are sums of squares, hence nonnegative. -/
theorem rowSq_nonneg {n : ℕ} (X : (⟨2, ![n, 1024]⟩ : Shape).Idx → EReal) (Wm : (⟨2, ![1024, 1024]⟩ : Shape).Idx → EReal) (r : Fin n) :
    0 ≤ rowSq X Wm r := by
  unfold rowSq
  refine Finset.sum_nonneg fun d _ => ?_
  generalize (∑ e : Fin 1024, X (ix2 r e) * Wm (ix2 e d)) = v
  induction v using EReal.rec with
  | bot => rw [EReal.bot_mul_bot]; exact le_top
  | coe x => rw [← EReal.coe_mul]; exact EReal.coe_nonneg.mpr (mul_self_nonneg x)
  | top => rw [EReal.top_mul_top]; exact le_top

abbrev Sc : Shape := ⟨0, ![]⟩
abbrev Sp : Shape := ⟨1, ![2048]⟩
abbrev Spos : Shape := ⟨2, ![2048, 1024]⟩
abbrev Sx : Shape := ⟨2, ![32768, 1024]⟩
abbrev Sw : Shape := ⟨2, ![1024, 1024]⟩
abbrev So : Shape := ⟨1, ![32768]⟩

/-- The calibration vector: the fourth power of the norm of each row of `P · Wm`. -/
def calibVec (P : Spos.Idx → EReal) (Wm : Sw.Idx → EReal) : Sp.Idx → EReal :=
  fun i => rowSq P Wm (i 0) * rowSq P Wm (i 0)

/-- The main kernel's first output array. -/
def outA (X Y : Sx.Idx → EReal) (Wm : Sw.Idx → EReal) : So.Idx → EReal := fun i => rowProd X Y Wm (i 0)

/-- The main kernel's second output array. -/
def outB (Y : Sx.Idx → EReal) : So.Idx → EReal := fun i => rowDot Y (i 0)

/-- `c₁ / (max − min)` of the calibration vector, as the host computes it (the maximum folded from `-∞`, the minimum
    from `+∞`; `c₁` the literal the programs share). -/
def slope (hr : Sp.ReducesTo [0] Sc) (h0 : 0 < Sc.numel) (v : FVec Ideal Sp .f32) : FVec Ideal Sc .f32 :=
  Host.divf (F := Ideal) (constant (F := Ideal) Sc .f32 0x3F7FBE77#32)
    (subf (Host.reduce (FloatOps.maximumf (F := Ideal) (φ := .f32)) v (constant (F := Ideal) Sc .f32 0xFF800000#32) hr h0)
      (Host.reduce (FloatOps.minimumf (F := Ideal) (φ := .f32)) v (constant (F := Ideal) Sc .f32 0x7F800000#32) hr h0))

/-- `c₂ − slope · min`. -/
def shift (hr : Sp.ReducesTo [0] Sc) (h0 : 0 < Sc.numel) (v : FVec Ideal Sp .f32) : FVec Ideal Sc .f32 :=
  subf (constant (F := Ideal) Sc .f32 0x3A83126F#32)
    (mulf (slope hr h0 v)
      (Host.reduce (FloatOps.minimumf (F := Ideal) (φ := .f32)) v (constant (F := Ideal) Sc .f32 0x7F800000#32) hr h0))

/-- Two scalars broadcast along the rows, multiplied into two vectors and added, read at row `i`. -/
theorem combine_apply (hb : Sc.BroadcastsInDim So (![] : Fin 0 → Fin So.rank)) (s t : FVec Ideal Sc .f32) (A B : FVec Ideal So .f32)
    (i : So.Idx) :
    addf (F := Ideal) (φ := .f32) (mulf (F := Ideal) (φ := .f32) (broadcastInDim So ![] hb s) A)
        (mulf (F := Ideal) (φ := .f32) (broadcastInDim So ![] hb t) B) i
      = s ix0 * A i + t ix0 * B i := by
  show broadcastInDim So ![] hb s i * A i + broadcastInDim So ![] hb t i * B i = _
  rw [broadcastInDim_apply _ hb s i ix0 (fun a => a.elim0), broadcastInDim_apply _ hb t i ix0 (fun a => a.elim0)]

end Cert.Kinetic

end
-- ==== Proof.Payload.lean ====
/-
  The bodies' arithmetic at a row.

  The calibration body computes, for row `p` of its block, the square of the sum over `d` of the squared entries of the
  matrix product (the product taken into a zero accumulator, after a change of format that is the identity on the extended
  reals): `rowSq · rowSq`. One trip of the main body computes for row `l` of its 128-row chunk the same quantity times the
  squared norm of the chunk's row of the second operand, and stores that squared norm beside it.
-/
import proofs.«110886_j63453846831506_2_alg».proof.Proof.Gen.KernelIdeal.Skeleton
import proofs.«110886_j63453846831506_2_alg».proof.Proof.LibRowMax
import proofs.«110886_j63453846831506_2_alg».proof.Proof.LibColumn
import proofs.«110886_j63453846831506_2_alg».proof.Proof.Spec
import Idealize.ShloMosaic.Lib.Pipeline.Value

noncomputable section

namespace Cert.KernelIdeal.Payload

open Cert.KernelIdeal Cert.KernelIdeal.Gen Cert.Kinetic
open Idealize.ShloMosaic Idealize.ShloMosaic.ValueIdx

/-- The product into a zero accumulator, at `(r, d)`: the left operand's change of format and the right operand's
    trivial reshape are identities, and the contraction is the sum over the shared coordinate. -/
theorem matmul_read {n : ℕ}
    (wf : DotDims.WF ⟨2, ![n, 1024]⟩ ⟨2, ![1024, 1024]⟩ ⟨2, ![n, 1024]⟩ [1] [0] [0] [1] [] [])
    (hb : FTy.bits .bf16 < FTy.bits .f32) (hs : (⟨2, ![1024, 1024]⟩ : Shape).ShapeCasts ⟨2, ![1024, 1024]⟩)
    (X : FVec Ideal ⟨2, ![n, 1024]⟩ .f32) (Wm : FVec Ideal ⟨2, ![1024, 1024]⟩ .bf16) (r : Fin n) (d : Fin 1024) :
    matmul (Cert.LibRowMax.plainDims n 1024 1024 wf) none (truncf .bf16 X hb) (shapeCast ⟨2, ![1024, 1024]⟩ Wm hs)
        (constant ⟨2, ![n, 1024]⟩ .f32 0x00000000#32) (ix2 r d)
      = ∑ e : Fin 1024, X (ix2 r e) * Wm (ix2 e d) := by
  rw [shapeCast_self]
  exact Cert.LibRowMax.matmul_plain_apply wf none (truncf .bf16 X hb) Wm r d

/-- The sum along the last axis of the entrywise square of a matrix, at row `r`. -/
theorem sum_sq_read {n : ℕ} (hred : (⟨2, ![n, 1024]⟩ : Shape).Reduces [1] ⟨1, ![n]⟩) (hφ : FKind.Formats .f32)
    (hacc : (0x00000000#32 : BitVec 32) = FKind.add.neutral .f32 hφ) (M : FVec Ideal ⟨2, ![n, 1024]⟩ .f32) (r : Fin n) :
    multiReduction .add [1] ⟨1, ![n]⟩ (mulf M M) 0x00000000#32 hred hφ hacc (ix1 r) = ∑ d : Fin 1024, M (ix2 r d) * M (ix2 r d) :=
  Cert.LibColumn.sum_last_apply (mulf M M) hred hφ hacc r

/-- The squared norm of row `r` of the product, as the bodies compute it. -/
theorem rowSq_read {n : ℕ}
    (wf : DotDims.WF ⟨2, ![n, 1024]⟩ ⟨2, ![1024, 1024]⟩ ⟨2, ![n, 1024]⟩ [1] [0] [0] [1] [] [])
    (hb : FTy.bits .bf16 < FTy.bits .f32) (hs : (⟨2, ![1024, 1024]⟩ : Shape).ShapeCasts ⟨2, ![1024, 1024]⟩)
    (hred : (⟨2, ![n, 1024]⟩ : Shape).Reduces [1] ⟨1, ![n]⟩) (hφ : FKind.Formats .f32)
    (hacc : (0x00000000#32 : BitVec 32) = FKind.add.neutral .f32 hφ)
    (X : FVec Ideal ⟨2, ![n, 1024]⟩ .f32) (Wm : FVec Ideal ⟨2, ![1024, 1024]⟩ .bf16) (r : Fin n) :
    multiReduction .add [1] ⟨1, ![n]⟩
        (mulf (matmul (Cert.LibRowMax.plainDims n 1024 1024 wf) none (truncf .bf16 X hb) (shapeCast ⟨2, ![1024, 1024]⟩ Wm hs)
            (constant ⟨2, ![n, 1024]⟩ .f32 0x00000000#32))
          (matmul (Cert.LibRowMax.plainDims n 1024 1024 wf) none (truncf .bf16 X hb) (shapeCast ⟨2, ![1024, 1024]⟩ Wm hs)
            (constant ⟨2, ![n, 1024]⟩ .f32 0x00000000#32)))
        0x00000000#32 hred hφ hacc (ix1 r)
      = rowSq X Wm r := by
  refine (sum_sq_read hred hφ hacc _ r).trans ?_
  unfold rowSq
  exact Finset.sum_congr rfl fun d _ => by rw [matmul_read wf hb hs X Wm r d]

/-- The calibration body at row `p`: the fourth power of the norm of the product's row. -/
theorem calib_apply (v0 : Vec Ideal S2048x1024 .f32) (v2 : Vec Ideal S1024x1024 .bf16) (p : Fin 2048) :
    k0_pay1 (F := Ideal) v0 v2 (ix1 p) = rowSq v0 v2 p * rowSq v0 v2 p := by
  have h1 := rowSq_read (n := 2048) dot_S2048x1024_S1024x1024_S2048x1024_1_0_0_1_n_n_wf bitsLt_bf16_f32
    shapeCasts_S1024x1024_S1024x1024 reduces_S2048x1024_S2048 (.inl rfl) rfl v0 v2 p
  exact congrArg₂ (· * ·) h1 h1

/-- The same at any index of the block. -/
theorem calib_apply' (v0 : Vec Ideal S2048x1024 .f32) (v2 : Vec Ideal S1024x1024 .bf16) (j : S2048.Idx) :
    k0_pay1 (F := Ideal) v0 v2 j = rowSq v0 v2 (j 0) * rowSq v0 v2 (j 0) := by
  obtain ⟨p, rfl⟩ : ∃ p : Fin 2048, j = ix1 p := ⟨j 0, eq_ix1 j⟩
  exact calib_apply v0 v2 p

/-- The squared norm a trip stores: row `l` of its chunk of the second operand. -/
theorem dot_apply (v13 : Vec Ideal S128x1024 .f32) (l : Fin 128) :
    k1_pay1 (F := Ideal) v13 (ix1 l) = rowDot v13 l :=
  sum_sq_read (n := 128) reduces_S128x1024_S128 (.inl rfl) rfl v13 l

/-- The product a trip stores, at row `l` of its chunk. -/
theorem main_apply (v0 : Vec Ideal S1024x1024 .bf16) (v6 v13 : Vec Ideal S128x1024 .f32) (l : Fin 128) :
    k1_pay2 (F := Ideal) v0 v6 v13 (ix1 l) = (rowSq v6 v0 l * rowSq v6 v0 l) * rowDot v13 l := by
  have h1 := rowSq_read (n := 128) dot_S128x1024_S1024x1024_S128x1024_1_0_0_1_n_n_wf bitsLt_bf16_f32
    shapeCasts_S1024x1024_S1024x1024 reduces_S128x1024_S128 (.inl rfl) rfl v6 v0 l
  exact congrArg₂ (· * ·) (congrArg₂ (· * ·) h1 h1) (dot_apply v13 l)

end Cert.KernelIdeal.Payload

end
-- ==== Proof.MainBody.lean ====
/-
  What one launch of the main kernel leaves in its two output blocks.

  The body walks its 2048-row block in 16 chunks of 128 rows. Trip `k` loads rows `128·k … 128·k+127` of both operand
  blocks and stores, at the same rows of the two output blocks, the product and the squared norm of Payload.lean. So every
  store is the restriction, to its 128 rows, of ONE function of the row: row `r` of the first output is
  `rowProd x0 x1 w r` and of the second `rowDot x1 r`, whatever chunk `r` falls in. The stores of all trips tile the block,
  hence the block read back after the loop is that function.
-/
import proofs.«110886_j63453846831506_2_alg».proof.Proof.Gen.KernelIdeal.Frame
import proofs.«110886_j63453846831506_2_alg».proof.Proof.Payload
import Idealize.ShloMosaic.Lib.Pipeline.Value

set_option maxRecDepth 16384

noncomputable section

namespace Cert.KernelIdeal.MainBody

open Cert.KernelIdeal Cert.KernelIdeal.Gen Cert.Kinetic
open Idealize.ShloMosaic Idealize.ShloMosaic.TcCoe Idealize.ShloMosaic.ValueIdx Idealize.SL.Sem

variable (c : Dev nD) (i : grid1.Coords) (arg1 : Memref sig .tc .vmem S2048x1024 .f32) (harg1 : arg1.IsWhole) (arg2 : Memref sig .tc .vmem S2048x1024 .f32) (harg2 : arg2.IsWhole) (arg3 : Memref sig .tc .vmem S1024x1024 .bf16) (harg3 : arg3.IsWhole) (arg4 : Memref sig .tc .vmem S2048 .f32) (harg4 : arg4.IsWhole) (arg5 : Memref sig .tc .vmem S2048 .f32) (harg5 : arg5.IsWhole)
    (x0 x1 : Vec Ideal S2048x1024 .f32) (x2 v0 : Vec Ideal S1024x1024 .bf16)

/-- The first output block as a function of the row. -/
def blockA (x0 x1 : Vec Ideal S2048x1024 .f32) (w : Vec Ideal S1024x1024 .bf16) : Vec Ideal S2048 .f32 :=
  fun y => rowProd x0 x1 w (y 0)

/-- The second output block as a function of the row. -/
def blockB (x1 : Vec Ideal S2048x1024 .f32) : Vec Ideal S2048 .f32 := fun y => rowDot x1 (y 0)

/-- Row `l` of chunk `k` is row `128·k + l` of the block. -/
def rowOf (k : Fin k1_t1_loop.trips) (l : Fin 128) : Fin 2048 :=
  ⟨128 * k.val + l.val, by have h1 := k.isLt; have h2 := k1_t1_abs.2.1; have h3 := l.isLt; omega⟩

/-- A chunk's load of a block whose contents read `x`: entry `(l, e)` is `x (128·k + l, e)`. -/
theorem chunk_read (arg : Memref sig .tc .vmem S2048x1024 .f32) (harg : arg.IsWhole) (x : Vec Ideal S2048x1024 .f32)
    (k : Fin k1_t1_loop.trips) (l : Fin 128) (e : Fin 1024) :
    View.readAt (Elt Ideal) arg.view (Rect.unit (s := S2048x1024) (k1_off1 k) S128x1024.size (k1_off1_inb k)).toLoadRect (harg.unread x) (ix2 l e)
      = x (ix2 (rowOf k l) e) := by
  rw [View.readAt_eq_ld, harg.read_unread]
  refine congrArg x (funext fun a => Fin.ext ?_)
  match a with
  | ⟨0, _⟩ =>
    show (k1_off1 k) 0 + 1 * l.val = 128 * k.val + l.val
    rw [k1_off1_eq k]
    show 128 * k.val + 1 * l.val = 128 * k.val + l.val
    omega
  | ⟨1, _⟩ =>
    show (k1_off1 k) 1 + 1 * e.val = e.val
    rw [k1_off1_eq k]
    show 0 + 1 * e.val = e.val
    omega

/-- The row of the output block that entry `l` of trip `k`'s store lands on. -/
theorem store_row (k : Fin k1_t1_loop.trips) (l : Fin 128) :
    ((Rect.unit (s := S2048) (k1_off2 k) S128.size (k1_off2_inb k)).emb (ix1 l)) 0 = rowOf k l := by
  apply Fin.ext
  show (k1_off2 k) 0 + 1 * l.val = 128 * k.val + l.val
  rw [k1_off2_eq k]
  show 128 * k.val + 1 * l.val = 128 * k.val + l.val
  omega

/-- Trip `k`'s first store is the restriction of `blockA` to its rows. -/
theorem pieceA (k : Fin k1_t1_loop.trips) (x : S128.Idx) :
    k1_pay2 (F := Ideal) v0
        (View.readAt (Elt Ideal) arg1.view (Rect.unit (s := S2048x1024) (k1_off1 k) S128x1024.size (k1_off1_inb k)).toLoadRect (harg1.unread x0))
        (View.readAt (Elt Ideal) arg2.view (Rect.unit (s := S2048x1024) (k1_off1 k) S128x1024.size (k1_off1_inb k)).toLoadRect (harg2.unread x1)) x
      = blockA x0 x1 v0 ((Rect.unit (s := S2048) (k1_off2 k) S128.size (k1_off2_inb k)).emb x) := by
  obtain ⟨l, rfl⟩ : ∃ l : Fin 128, x = ix1 l := ⟨x 0, eq_ix1 x⟩
  refine (Payload.main_apply v0 _ _ l).trans ?_
  refine Eq.trans ?_ (congrArg (rowProd x0 x1 v0) (store_row k l)).symm
  unfold rowProd
  rw [rowSq_congr (fun e => chunk_read arg1 harg1 x0 k l e) (fun _ _ => rfl),
    rowDot_congr (fun d => chunk_read arg2 harg2 x1 k l d)]

/-- Trip `k`'s second store is the restriction of `blockB` to its rows. -/
theorem pieceB (k : Fin k1_t1_loop.trips) (x : S128.Idx) :
    k1_pay1 (F := Ideal)
        (View.readAt (Elt Ideal) arg2.view (Rect.unit (s := S2048x1024) (k1_off1 k) S128x1024.size (k1_off1_inb k)).toLoadRect (harg2.unread x1)) x
      = blockB x1 ((Rect.unit (s := S2048) (k1_off2 k) S128.size (k1_off2_inb k)).emb x) := by
  obtain ⟨l, rfl⟩ : ∃ l : Fin 128, x = ix1 l := ⟨x 0, eq_ix1 x⟩
  refine (Payload.dot_apply _ l).trans ?_
  refine Eq.trans ?_ (congrArg (rowDot x1) (store_row k l)).symm
  exact rowDot_congr (fun d => chunk_read arg2 harg2 x1 k l d)

/-- What trip `k` stores, as the run found it: one store per output, at the trip's rows, of the payloads of the trip's loads. -/
theorem trip_pieces (X1 : BufTy.Contents (Elt Ideal) arg1.view.ty) (X2 : BufTy.Contents (Elt Ideal) arg2.view.ty) (k : Fin k1_t1_loop.trips) :
    tripL_k1_t1 (F := Ideal) Variants.none c none i arg1 harg1 arg2 harg2 arg3 harg3 arg4 harg4 arg5 harg5 v0 X1 X2 k
      = ([⟨Rect.unit (s := S2048) (k1_off2 k) S128.size (k1_off2_inb k),
            k1_pay2 (F := Ideal) v0
              (View.readAt (Elt Ideal) arg1.view (Rect.unit (s := S2048x1024) (k1_off1 k) S128x1024.size (k1_off1_inb k)).toLoadRect X1)
              (View.readAt (Elt Ideal) arg2.view (Rect.unit (s := S2048x1024) (k1_off1 k) S128x1024.size (k1_off1_inb k)).toLoadRect X2)⟩],
         [⟨Rect.unit (s := S2048) (k1_off2 k) S128.size (k1_off2_inb k),
            k1_pay1 (F := Ideal)
              (View.readAt (Elt Ideal) arg2.view (Rect.unit (s := S2048x1024) (k1_off1 k) S128x1024.size (k1_off1_inb k)).toLoadRect X2)⟩]) := by
  unfold tripL_k1_t1 trip_k1_t1
  rfl

/-- Every store of the trips before `n` is a restriction of the block functions. -/
theorem pieces_below : ∀ n : ℕ, n ≤ k1_t1_loop.trips →
    (∀ p ∈ (pb_k1_t1 (F := Ideal) Variants.none c none i arg1 harg1 arg2 harg2 arg3 harg3 arg4 harg4 arg5 harg5 v0 (harg1.unread x0) (harg2.unread x1) n).1,
        ∀ x : p.1.shape.Idx, p.2 x = blockA x0 x1 v0 (p.1.emb x))
    ∧ (∀ p ∈ (pb_k1_t1 (F := Ideal) Variants.none c none i arg1 harg1 arg2 harg2 arg3 harg3 arg4 harg4 arg5 harg5 v0 (harg1.unread x0) (harg2.unread x1) n).2,
        ∀ x : p.1.shape.Idx, p.2 x = blockB x1 (p.1.emb x))
  | 0, _ => by
    rw [pb_k1_t1]
    exact ⟨fun p hp => absurd hp List.not_mem_nil, fun p hp => absurd hp List.not_mem_nil⟩
  | n + 1, hn => by
    have hlt : n < k1_t1_loop.trips := hn
    obtain ⟨ihA, ihB⟩ := pieces_below n (Nat.le_of_lt hlt)
    have e := pb_k1_t1_succ (F := Ideal) Variants.none c none i arg1 harg1 arg2 harg2 arg3 harg3 arg4 harg4 arg5 harg5 v0 (harg1.unread x0) (harg2.unread x1) ⟨n, hlt⟩
    rw [show (⟨n, hlt⟩ : Fin k1_t1_loop.trips).val = n from rfl, trip_pieces] at e
    rw [e]
    refine ⟨fun p hp x => ?_, fun p hp x => ?_⟩
    · rcases List.mem_append.mp hp with h | h
      · obtain rfl := List.mem_singleton.mp h
        exact pieceA (harg1 := harg1) (harg2 := harg2) (x0 := x0) (x1 := x1) (v0 := v0) (k := ⟨n, hlt⟩) (x := x)
      · exact ihA p h x
    · rcases List.mem_append.mp hp with h | h
      · obtain rfl := List.mem_singleton.mp h
        exact pieceB (harg2 := harg2) (x1 := x1) (k := ⟨n, hlt⟩) (x := x)
      · exact ihB p h x

/-- The weights' block, loaded whole. -/
theorem weights_read :
    View.readAt (Elt Ideal) arg3.view (Rect.unit (s := S1024x1024) ![0, 0] S1024x1024.size inb_S1024x1024_S1024x1024_0_0).toLoadRect (harg3.unread x2) = x2 := by
  rw [View.readAt_eq_ld, harg3.read_unread]
  exact View.ld_unit_zero (funext fun a => by match a with | ⟨0, _⟩ => rfl | ⟨1, _⟩ => rfl) _ x2

/-- The run's stores are those of all the trips. -/
theorem run_pieces :
    ((kernelRun1_A (F := Ideal) c i arg1 harg1 arg2 harg2 arg3 harg3 arg4 harg4 arg5 harg5 x0 x1 x2).1, (kernelRun1_A (F := Ideal) c i arg1 harg1 arg2 harg2 arg3 harg3 arg4 harg4 arg5 harg5 x0 x1 x2).2.1)
      = pb_k1_t1 (F := Ideal) Variants.none c none i arg1 harg1 arg2 harg2 arg3 harg3 arg4 harg4 arg5 harg5
          (View.readAt (Elt Ideal) arg3.view (Rect.unit (s := S1024x1024) ![0, 0] S1024x1024.size inb_S1024x1024_S1024x1024_0_0).toLoadRect (harg3.unread x2))
          (harg1.unread x0) (harg2.unread x1) k1_t1_loop.trips := by
  unfold kernelRun1_A
  rfl

/-- The first output block after the body. -/
theorem out_A : out1_A_3 (F := Ideal) c i arg1 harg1 arg2 harg2 arg3 harg3 arg4 harg4 arg5 harg5 x0 x1 x2 = blockA x0 x1 x2 := by
  unfold out1_A_3
  rw [View.read_writes_eq_canon _ _ _ (cover1_A_3 c i arg1 harg1 arg2 harg2 arg3 harg3 arg4 harg4 arg5 harg5 x0 x1 x2)]
  funext y
  have hL := (pieces_below c i arg1 harg1 arg2 harg2 arg3 harg3 arg4 harg4 arg5 harg5 x0 x1
    (View.readAt (Elt Ideal) arg3.view (Rect.unit (s := S1024x1024) ![0, 0] S1024x1024.size inb_S1024x1024_S1024x1024_0_0).toLoadRect (harg3.unread x2))
    k1_t1_loop.trips le_rfl).1
  rw [← run_pieces, weights_read] at hL
  exact View.canon_apply_of_pieces (blockA x0 x1 x2) _ hL y (cover1_A_3 c i arg1 harg1 arg2 harg2 arg3 harg3 arg4 harg4 arg5 harg5 x0 x1 x2 y)

/-- The second output block after the body. -/
theorem out_B : out1_A_4 (F := Ideal) c i arg1 harg1 arg2 harg2 arg3 harg3 arg4 harg4 arg5 harg5 x0 x1 x2 = blockB x1 := by
  unfold out1_A_4
  rw [View.read_writes_eq_canon _ _ _ (cover1_A_4 c i arg1 harg1 arg2 harg2 arg3 harg3 arg4 harg4 arg5 harg5 x0 x1 x2)]
  funext y
  have hL := (pieces_below c i arg1 harg1 arg2 harg2 arg3 harg3 arg4 harg4 arg5 harg5 x0 x1
    (View.readAt (Elt Ideal) arg3.view (Rect.unit (s := S1024x1024) ![0, 0] S1024x1024.size inb_S1024x1024_S1024x1024_0_0).toLoadRect (harg3.unread x2))
    k1_t1_loop.trips le_rfl).2
  rw [← run_pieces] at hL
  exact View.canon_apply_of_pieces (blockB x1) _ hL y (cover1_A_4 c i arg1 harg1 arg2 harg2 arg3 harg3 arg4 harg4 arg5 harg5 x0 x1 x2 y)

end Cert.KernelIdeal.MainBody

end
-- ==== Proof.Blocks.lean ====
/-
  From blocks to arrays: what each launch leaves in its output arrays, as one function of the arrays it finds.

  The calibration launch has one grid point whose blocks are the whole arrays; the main launch has 16 points, point `t`
  holding rows `2048·t … 2048·t + 2047` of both operands and of both outputs, and the whole weight matrix. In both, what a
  point writes back is the restriction to its rows of one function of the row (Payload.lean, MainBody.lean), read from the
  arrays' own rows; the points' blocks tile the output arrays; so each output array ends as that function.
-/
import proofs.«110886_j63453846831506_2_alg».proof.Proof.Gen.KernelIdeal.Frame
import proofs.«110886_j63453846831506_2_alg».proof.Proof.MainBody
import Idealize.ShloMosaic.Lib.Pipeline.Value

set_option maxRecDepth 16384

noncomputable section

namespace Cert.KernelIdeal.Blocks

open Cert.KernelIdeal Cert.KernelIdeal.Gen Cert.Kinetic
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

/-! ## The calibration launch -/

/-- Its index maps, over the one grid point: every block index is zero. -/
theorem idx0 : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 1) = 0 :=
  (by decide +kernel : ∀ t : Fin grid0.N, _)

/-- The sample block is the sample array. -/
theorem blk0_0 (t : Fin cfg0.N) (r : Fin 2048) (e : Fin 1024) :
    iblk0 V c 0 t (ix2 r e) = (V c main_arg2 : S2048x1024.Idx → EReal) (ix2 r e) := by
  obtain ⟨h0, h1, -, -, -⟩ := idx0 t
  show (V c main_arg2 : S2048x1024.Idx → EReal) (((cfg0.win 0).blk t).view.emb (ix2 r e)) = _
  refine congrArg (V c main_arg2 : S2048x1024.Idx → EReal) (funext fun a => Fin.ext ?_)
  match a with
  | ⟨0, _⟩ => show win0_0.index t (0 : Fin 2) * 2048 + 1 * r.val = r.val; omega
  | ⟨1, _⟩ => show win0_0.index t (1 : Fin 2) * 1024 + 1 * e.val = e.val; omega

/-- The weight block is the weight array. -/
theorem blk0_1 (t : Fin cfg0.N) (e d : Fin 1024) :
    iblk0 V c 1 t (ix2 e d) = (V c main_v0 : S1024x1024.Idx → EReal) (ix2 e d) := by
  obtain ⟨-, -, h0, h1, -⟩ := idx0 t
  show (V c main_v0 : S1024x1024.Idx → EReal) (((cfg0.win 1).blk t).view.emb (ix2 e d)) = _
  refine congrArg (V c main_v0 : S1024x1024.Idx → EReal) (funext fun a => Fin.ext ?_)
  match a with
  | ⟨0, _⟩ => show win0_1.index t (0 : Fin 2) * 1024 + 1 * e.val = e.val; omega
  | ⟨1, _⟩ => show win0_1.index t (1 : Fin 2) * 1024 + 1 * d.val = d.val; omega

theorem hz1 : (![0] : Fin 1 → Nat) = fun _ => 0 := funext fun a => by match a with | ⟨0, _⟩ => rfl
theorem hz2 : (![0, 0] : Fin 2 → Nat) = fun _ => 0 := funext fun a => by match a with | ⟨0, _⟩ => rfl | ⟨1, _⟩ => rfl

/-- What the one point writes back is its block of the calibration vector. -/
theorem calib_flushed (t : Fin cfg0.N) :
    (dat0 V c).flushed 2 t = ((cfg0.win 2).blk t).view.read (Elt Ideal)
      (calibVec (V c main_arg2 : S2048x1024.Idx → EReal) (V c main_v0 : S1024x1024.Idx → EReal)) := by
  show (cfg0.win 2).cut (grid0.coords t) ((dat0 V c).after 2 t) = _
  rw [after0_2]
  unfold out0_2
  rw [View.canon_unit_zero hz1]
  simp only [View.ld_unit_zero (S := S2048x1024) hz2, View.ld_unit_zero (S := S1024x1024) hz2]
  funext j
  obtain ⟨-, -, -, -, h2⟩ := idx0 t
  refine (Payload.calib_apply' (iblk0 V c 0 t) (iblk0 V c 1 t) j).trans ?_
  have hrow : (((cfg0.win 2).blk t).view.emb j) 0 = j 0 := Fin.ext (by
    show win0_2.index t (0 : Fin 1) * 2048 + 1 * (j 0).val = (j 0).val; omega)
  show _ = rowSq (V c main_arg2 : S2048x1024.Idx → EReal) (V c main_v0 : S1024x1024.Idx → EReal) ((((cfg0.win 2).blk t).view.emb j) 0)
      * rowSq (V c main_arg2 : S2048x1024.Idx → EReal) (V c main_v0 : S1024x1024.Idx → EReal) ((((cfg0.win 2).blk t).view.emb j) 0)
  rw [hrow, rowSq_congr (fun e => blk0_0 V c t (j 0) e) (fun e d => blk0_1 V c t e d)]

/-- The one point's block is the whole array. -/
theorem calib_cover (i : S2048.Idx) : ∃ t : Fin cfg0.N, (cfg0.win 2).flush t = true ∧ i ∈ ((cfg0.win 2).blk t).view.set := by
  refine ⟨t0_0, flush0_2 t0_0, ?_⟩
  show i ∈ ((View.whole main_v1).slice (win0_2.rect t0_0)).set
  rw [View.set_slice_whole, Rect.mem_set_unit]
  obtain ⟨-, -, -, -, h2⟩ := idx0 t0_0
  intro a
  match a with
  | ⟨0, _⟩ =>
    show win0_2.index t0_0 (0 : Fin 1) * 2048 ≤ (i 0).val ∧ (i 0).val < win0_2.index t0_0 (0 : Fin 1) * 2048 + 2048
    have hi : (i 0).val < 2048 := (i 0).isLt
    omega

/-- The calibration array after the launch. -/
theorem calib_final : (dat0 V c).arrAt 2 cfg0.N
    = calibVec (V c main_arg2 : S2048x1024.Idx → EReal) (V c main_v0 : S1024x1024.Idx → EReal) :=
  (dat0 V c).arrAt_eq_of_cover 2 _ (fun t _ => calib_flushed V c t) (calib_cover)

/-! ## The main launch -/

/-- Its index maps over the 16 points: the row-blocked windows move with the point, the weights' stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = t.val ∧ win1_4.index t (0 : Fin 1) = t.val :=
  (by decide +kernel : ∀ t : Fin grid1.N, _)

/-- Row `r` of point `t`'s blocks is row `2048·t + r` of the arrays. -/
def arrRow (t : Fin cfg1.N) (r : Fin 2048) : Fin 32768 :=
  ⟨t.val * 2048 + r.val, by have h1 : t.val < grid1.N := t.isLt; have h2 := N_1; have h3 := r.isLt; omega⟩

theorem blk1_0 (t : Fin cfg1.N) (r : Fin 2048) (e : Fin 1024) :
    iblk1 V c 0 t (ix2 r e) = (V c main_arg0 : S32768x1024.Idx → EReal) (ix2 (arrRow t r) e) := by
  obtain ⟨h0, h1, -, -, -, -, -, -⟩ := idx1 t
  show (V c main_arg0 : S32768x1024.Idx → EReal) (((cfg1.win 0).blk t).view.emb (ix2 r e)) = _
  refine congrArg (V c main_arg0 : S32768x1024.Idx → EReal) (funext fun a => Fin.ext ?_)
  match a with
  | ⟨0, _⟩ => show win1_0.index t (0 : Fin 2) * 2048 + 1 * r.val = t.val * 2048 + r.val; omega
  | ⟨1, _⟩ => show win1_0.index t (1 : Fin 2) * 1024 + 1 * e.val = e.val; omega

theorem blk1_1 (t : Fin cfg1.N) (r : Fin 2048) (e : Fin 1024) :
    iblk1 V c 1 t (ix2 r e) = (V c main_arg1 : S32768x1024.Idx → EReal) (ix2 (arrRow t r) e) := by
  obtain ⟨-, -, h0, h1, -, -, -, -⟩ := idx1 t
  show (V c main_arg1 : S32768x1024.Idx → EReal) (((cfg1.win 1).blk t).view.emb (ix2 r e)) = _
  refine congrArg (V c main_arg1 : S32768x1024.Idx → EReal) (funext fun a => Fin.ext ?_)
  match a with
  | ⟨0, _⟩ => show win1_1.index t (0 : Fin 2) * 2048 + 1 * r.val = t.val * 2048 + r.val; omega
  | ⟨1, _⟩ => show win1_1.index t (1 : Fin 2) * 1024 + 1 * e.val = e.val; omega

theorem blk1_2 (t : Fin cfg1.N) (e d : Fin 1024) :
    iblk1 V c 2 t (ix2 e d) = (V c main_v0 : S1024x1024.Idx → EReal) (ix2 e d) := by
  obtain ⟨-, -, -, -, h0, h1, -, -⟩ := idx1 t
  show (V c main_v0 : S1024x1024.Idx → EReal) (((cfg1.win 2).blk t).view.emb (ix2 e d)) = _
  refine congrArg (V c main_v0 : S1024x1024.Idx → EReal) (funext fun a => Fin.ext ?_)
  match a with
  | ⟨0, _⟩ => show win1_2.index t (0 : Fin 2) * 1024 + 1 * e.val = e.val; omega
  | ⟨1, _⟩ => show win1_2.index t (1 : Fin 2) * 1024 + 1 * d.val = d.val; omega

/-- Where entry `j` of point `t`'s output blocks sits in the output arrays. -/
theorem out_row3 (t : Fin cfg1.N) (j : S2048.Idx) : (((cfg1.win 3).blk t).view.emb j) 0 = arrRow t (j 0) := by
  obtain ⟨-, -, -, -, -, -, h3, -⟩ := idx1 t
  exact Fin.ext (by show win1_3.index t (0 : Fin 1) * 2048 + 1 * (j 0).val = t.val * 2048 + (j 0).val; omega)
theorem out_row4 (t : Fin cfg1.N) (j : S2048.Idx) : (((cfg1.win 4).blk t).view.emb j) 0 = arrRow t (j 0) := by
  obtain ⟨-, -, -, -, -, -, -, h4⟩ := idx1 t
  exact Fin.ext (by show win1_4.index t (0 : Fin 1) * 2048 + 1 * (j 0).val = t.val * 2048 + (j 0).val; omega)

/-- What point `t` writes back to the first output is its block of `outA`. -/
theorem A_flushed (t : Fin cfg1.N) :
    (dat1 V c).flushed 3 t = ((cfg1.win 3).blk t).view.read (Elt Ideal)
      (outA (V c main_arg0 : S32768x1024.Idx → EReal) (V c main_arg1 : S32768x1024.Idx → EReal) (V c main_v0 : S1024x1024.Idx → EReal)) := by
  show (cfg1.win 3).cut (grid1.coords t) ((dat1 V c).after 3 t) = _
  rw [after1_3]
  unfold outsAt1
  dsimp only
  rw [MainBody.out_A]
  funext j
  show MainBody.blockA (iblk1 V c 0 t) (iblk1 V c 1 t) (iblk1 V c 2 t) j
    = rowProd (V c main_arg0 : S32768x1024.Idx → EReal) (V c main_arg1 : S32768x1024.Idx → EReal) (V c main_v0 : S1024x1024.Idx → EReal)
        ((((cfg1.win 3).blk t).view.emb j) 0)
  rw [out_row3 t j]
  unfold MainBody.blockA rowProd
  rw [rowSq_congr (fun e => blk1_0 V c t (j 0) e) (fun e d => blk1_2 V c t e d),
    rowDot_congr (fun d => blk1_1 V c t (j 0) d)]

/-- and to the second, its block of `outB`. -/
theorem B_flushed (t : Fin cfg1.N) :
    (dat1 V c).flushed 4 t = ((cfg1.win 4).blk t).view.read (Elt Ideal) (outB (V c main_arg1 : S32768x1024.Idx → EReal)) := by
  show (cfg1.win 4).cut (grid1.coords t) ((dat1 V c).after 4 t) = _
  rw [after1_4]
  unfold outsAt1
  dsimp only
  rw [MainBody.out_B]
  funext j
  show MainBody.blockB (iblk1 V c 1 t) j = rowDot (V c main_arg1 : S32768x1024.Idx → EReal) ((((cfg1.win 4).blk t).view.emb j) 0)
  rw [out_row4 t j]
  unfold MainBody.blockB
  exact rowDot_congr (fun d => blk1_1 V c t (j 0) d)

/-- The point whose block holds row `i`. -/
def ptOf (i : S32768.Idx) : Fin cfg1.N :=
  ⟨(i 0).val / 2048, by have h : (i 0).val < 32768 := (i 0).isLt; show (i 0).val / 2048 < grid1.N; rw [N_1]; omega⟩

theorem A_cover (i : S32768.Idx) : ∃ t : Fin cfg1.N, (cfg1.win 3).flush t = true ∧ i ∈ ((cfg1.win 3).blk t).view.set := by
  refine ⟨ptOf i, flush1_3 _, ?_⟩
  show i ∈ ((View.whole main_v8_0).slice (win1_3.rect (ptOf i))).set
  rw [View.set_slice_whole, Rect.mem_set_unit]
  obtain ⟨-, -, -, -, -, -, h3, -⟩ := idx1 (ptOf i)
  have hp : (ptOf i).val = (i 0).val / 2048 := rfl
  intro a
  match a with
  | ⟨0, _⟩ =>
    show win1_3.index (ptOf i) (0 : Fin 1) * 2048 ≤ (i 0).val ∧ (i 0).val < win1_3.index (ptOf i) (0 : Fin 1) * 2048 + 2048
    omega

theorem B_cover (i : S32768.Idx) : ∃ t : Fin cfg1.N, (cfg1.win 4).flush t = true ∧ i ∈ ((cfg1.win 4).blk t).view.set := by
  refine ⟨ptOf i, flush1_4 _, ?_⟩
  show i ∈ ((View.whole main_v8_1).slice (win1_4.rect (ptOf i))).set
  rw [View.set_slice_whole, Rect.mem_set_unit]
  obtain ⟨-, -, -, -, -, -, -, h4⟩ := idx1 (ptOf i)
  have hp : (ptOf i).val = (i 0).val / 2048 := rfl
  intro a
  match a with
  | ⟨0, _⟩ =>
    show win1_4.index (ptOf i) (0 : Fin 1) * 2048 ≤ (i 0).val ∧ (i 0).val < win1_4.index (ptOf i) (0 : Fin 1) * 2048 + 2048
    omega

/-- The two output arrays after the main launch. -/
theorem A_final : (dat1 V c).arrAt 3 cfg1.N
    = outA (V c main_arg0 : S32768x1024.Idx → EReal) (V c main_arg1 : S32768x1024.Idx → EReal) (V c main_v0 : S1024x1024.Idx → EReal) :=
  (dat1 V c).arrAt_eq_of_cover 3 _ (fun t _ => A_flushed V c t) (A_cover)
theorem B_final : (dat1 V c).arrAt 4 cfg1.N = outB (V c main_arg1 : S32768x1024.Idx → EReal) :=
  (dat1 V c).arrAt_eq_of_cover 4 _ (fun t _ => B_flushed V c t) (B_cover)

end Cert.KernelIdeal.Blocks

end
-- ==== Proof.Tail.lean ====
/-
  The idealized kernel's result as a function of the four arguments.

  Reading the program backwards from its result: the last host stretch forms `a · A + b · B` with the two scalars broadcast
  along the rows; `A` and `B` are the main launch's output arrays (Blocks.lean) at the arrays that launch finds, which are
  the arguments themselves and the weights after their change of format (the identity here); `a` and `b` are the shared
  `slope` and `shift` (Spec.lean) of the calibration launch's output array, which is `calibVec` of the sample argument and
  the same weights.
-/
import proofs.«110886_j63453846831506_2_alg».proof.Proof.Gen.KernelIdeal.Frame
import proofs.«110886_j63453846831506_2_alg».proof.Proof.Blocks
import Idealize.ShloMosaic.Lib.StableHlo.Run
import Idealize.ShloMosaic.Lib.Pipeline.Value

set_option maxRecDepth 16384

noncomputable section

namespace Cert.KernelIdeal.Tail

open Cert.KernelIdeal Cert.KernelIdeal.Gen Cert.Kinetic
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## What each launch finds -/

/-- The calibration launch finds the sample argument as launched -/
theorem entry0_sample : (V1 m ρ c main_arg2 : S2048x1024.Idx → EReal) = m ((c : Thread nD τ).loc main_arg2) := by
  show StableHlo.after hostOps0 (W0 m ρ c) (Proc.devRef .tc main_arg2) = _
  after_results <;> rfl

/-- and the weights after a change of format, which on the extended reals changes nothing. -/
theorem entry0_weights : (V1 m ρ c main_v0 : S1024x1024.Idx → EReal) = (m ((c : Thread nD τ).loc main_arg3) : S1024x1024.Idx → EReal) := by
  show StableHlo.after hostOps0 (W0 m ρ c) (Proc.devRef .tc main_v0) = _
  after_results <;> rfl

/-- The main launch finds the first two arguments as launched -/
theorem entry1_x : (V3 m ρ c main_arg0 : S32768x1024.Idx → EReal) = m ((c : Thread nD τ).loc main_arg0) := by
  have h3 : W3 m ρ c (Proc.devRef .tc main_arg0) = W2 m ρ c (Proc.devRef .tc main_arg0) := by
    show StableHlo.after hostOps1 (W2 m ρ c) (Proc.devRef .tc main_arg0) = _
    after_results
  have h1 : W1 m ρ c (Proc.devRef .tc main_arg0) = m ((c : Thread nD τ).loc main_arg0) := by
    show StableHlo.after hostOps0 (W0 m ρ c) (Proc.devRef .tc main_arg0) = _
    after_results <;> rfl
  exact h3.trans ((W2_of_ne m ρ c main_arg0 (by decide)).trans h1)

theorem entry1_xdot : (V3 m ρ c main_arg1 : S32768x1024.Idx → EReal) = m ((c : Thread nD τ).loc main_arg1) := by
  have h3 : W3 m ρ c (Proc.devRef .tc main_arg1) = W2 m ρ c (Proc.devRef .tc main_arg1) := by
    show StableHlo.after hostOps1 (W2 m ρ c) (Proc.devRef .tc main_arg1) = _
    after_results
  have h1 : W1 m ρ c (Proc.devRef .tc main_arg1) = m ((c : Thread nD τ).loc main_arg1) := by
    show StableHlo.after hostOps0 (W0 m ρ c) (Proc.devRef .tc main_arg1) = _
    after_results <;> rfl
  exact h3.trans ((W2_of_ne m ρ c main_arg1 (by decide)).trans h1)

/-- and the same weights: the calibration launch only read them. -/
theorem entry1_weights : (V3 m ρ c main_v0 : S1024x1024.Idx → EReal) = (m ((c : Thread nD τ).loc main_arg3) : S1024x1024.Idx → EReal) := by
  have h3 : W3 m ρ c (Proc.devRef .tc main_v0) = W2 m ρ c (Proc.devRef .tc main_v0) := by
    show StableHlo.after hostOps1 (W2 m ρ c) (Proc.devRef .tc main_v0) = _
    after_results
  have h2 : W2 m ρ c (Proc.devRef .tc main_v0) = V1 m ρ c main_v0 :=
    (W2_arr m ρ c 1).trans (((dat0 (V1 m ρ) c).arrAt_in 1 rfl _).trans (A_eq0 (V1 m ρ) c 1))
  exact h3.trans (h2.trans (entry0_weights m ρ c))

/-! ## The calibration array and the two scalars -/

/-- The calibration launch's output array. -/
theorem calib_arr : (W2 m ρ c (Proc.devRef .tc main_v1) : S2048.Idx → EReal)
    = calibVec (m ((c : Thread nD τ).loc main_arg2)) (m ((c : Thread nD τ).loc main_arg3) : S1024x1024.Idx → EReal) := by
  refine ((W2_arr m ρ c 2).trans (Blocks.calib_final (V1 m ρ) c)).trans ?_
  rw [entry0_sample, entry0_weights]

/-- The first scalar after the second host stretch. -/
theorem slope_val : (W3 m ρ c (Proc.devRef .tc main_v5) : S_.Idx → EReal)
    = slope reducesTo_S2048_S_d0 h_S_ (W2 m ρ c (Proc.devRef .tc main_v1) : S2048.Idx → EReal) := by
  show StableHlo.after hostOps1 (W2 m ρ c) (Proc.devRef .tc main_v5) = _
  after_results <;> rfl

/-- The second. -/
theorem shift_val : (W3 m ρ c (Proc.devRef .tc main_v7) : S_.Idx → EReal)
    = shift reducesTo_S2048_S_d0 h_S_ (W2 m ρ c (Proc.devRef .tc main_v1) : S2048.Idx → EReal) := by
  show StableHlo.after hostOps1 (W2 m ρ c) (Proc.devRef .tc main_v7) = _
  after_results <;> rfl

/-! ## The result -/

/-- The result buffer at the last boundary: `slope · A + shift · B` row by row. -/
theorem result_eq : (W5 m ρ c (Proc.devRef .tc main_v13) : S32768.Idx → EReal)
    = addf (F := Ideal) (φ := .f32)
        (mulf (F := Ideal) (φ := .f32) (broadcastInDim S32768 ![] bcast_S_S32768
            (slope reducesTo_S2048_S_d0 h_S_ (calibVec (m ((c : Thread nD τ).loc main_arg2)) (m ((c : Thread nD τ).loc main_arg3) : S1024x1024.Idx → EReal))))
          (outA (m ((c : Thread nD τ).loc main_arg0)) (m ((c : Thread nD τ).loc main_arg1)) (m ((c : Thread nD τ).loc main_arg3) : S1024x1024.Idx → EReal)))
        (mulf (F := Ideal) (φ := .f32) (broadcastInDim S32768 ![] bcast_S_S32768
            (shift reducesTo_S2048_S_d0 h_S_ (calibVec (m ((c : Thread nD τ).loc main_arg2)) (m ((c : Thread nD τ).loc main_arg3) : S1024x1024.Idx → EReal))))
          (outB (m ((c : Thread nD τ).loc main_arg1)))) := by
  have hA : (W4 m ρ c (Proc.devRef .tc main_v8_0) : S32768.Idx → EReal)
      = outA (m ((c : Thread nD τ).loc main_arg0)) (m ((c : Thread nD τ).loc main_arg1)) (m ((c : Thread nD τ).loc main_arg3) : S1024x1024.Idx → EReal) := by
    refine ((W4_arr m ρ c 3).trans (Blocks.A_final (V3 m ρ) c)).trans ?_
    rw [entry1_x, entry1_xdot, entry1_weights]
  have hB : (W4 m ρ c (Proc.devRef .tc main_v8_1) : S32768.Idx → EReal) = outB (m ((c : Thread nD τ).loc main_arg1)) := by
    refine ((W4_arr m ρ c 4).trans (Blocks.B_final (V3 m ρ) c)).trans ?_
    rw [entry1_xdot]
  have ha : (W4 m ρ c (Proc.devRef .tc main_v5) : S_.Idx → EReal)
      = slope reducesTo_S2048_S_d0 h_S_ (calibVec (m ((c : Thread nD τ).loc main_arg2)) (m ((c : Thread nD τ).loc main_arg3) : S1024x1024.Idx → EReal)) := by
    refine ((W4_of_ne m ρ c main_v5 (by decide)).trans (slope_val m ρ c)).trans ?_
    rw [calib_arr]
  have hb : (W4 m ρ c (Proc.devRef .tc main_v7) : S_.Idx → EReal)
      = shift reducesTo_S2048_S_d0 h_S_ (calibVec (m ((c : Thread nD τ).loc main_arg2)) (m ((c : Thread nD τ).loc main_arg3) : S1024x1024.Idx → EReal)) := by
    refine ((W4_of_ne m ρ c main_v7 (by decide)).trans (shift_val m ρ c)).trans ?_
    rw [calib_arr]
  have ht : (W5 m ρ c (Proc.devRef .tc main_v13) : S32768.Idx → EReal)
      = addf (F := Ideal) (φ := .f32) (mulf (F := Ideal) (φ := .f32) (broadcastInDim S32768 ![] bcast_S_S32768 (W4 m ρ c (Proc.devRef .tc main_v5) : S_.Idx → EReal)) (W4 m ρ c (Proc.devRef .tc main_v8_0) : S32768.Idx → EReal))
          (mulf (F := Ideal) (φ := .f32) (broadcastInDim S32768 ![] bcast_S_S32768 (W4 m ρ c (Proc.devRef .tc main_v7) : S_.Idx → EReal)) (W4 m ρ c (Proc.devRef .tc main_v8_1) : S32768.Idx → EReal)) := by
    show StableHlo.after hostOps2 (W4 m ρ c) (Proc.devRef .tc main_v13) = _
    after_results <;> rfl
  rw [ht, hA, hB, ha, hb]

/-- At row `i`. -/
theorem result_apply (i : S32768.Idx) : (W5 m ρ c (Proc.devRef .tc main_v13) : S32768.Idx → EReal) i
    = slope reducesTo_S2048_S_d0 h_S_ (calibVec (m ((c : Thread nD τ).loc main_arg2)) (m ((c : Thread nD τ).loc main_arg3) : S1024x1024.Idx → EReal)) ix0
        * rowProd (m ((c : Thread nD τ).loc main_arg0)) (m ((c : Thread nD τ).loc main_arg1)) (m ((c : Thread nD τ).loc main_arg3) : S1024x1024.Idx → EReal) (i 0)
      + shift reducesTo_S2048_S_d0 h_S_ (calibVec (m ((c : Thread nD τ).loc main_arg2)) (m ((c : Thread nD τ).loc main_arg3) : S1024x1024.Idx → EReal)) ix0
        * rowDot (m ((c : Thread nD τ).loc main_arg1)) (i 0) :=
  (congrFun (result_eq m ρ c) i).trans (combine_apply bcast_S_S32768 _ _ _ _ i)

end Cert.KernelIdeal.Tail

end
-- ==== Proof.LibExtSquares.lean ====
/-
  Squares, square roots and one-sided distributivity on the extended reals.

  * A square `v * v` is nonnegative for every extended real `v` (the two infinities square to `⊤`), hence so is a finite
    sum of squares.
  * The ideal square root satisfies `√u * √u = u` for every `0 ≤ u`, the value `⊤` included (`√⊤ = ⊤`), so the fourth
    power of the root of a nonnegative `u` is `u * u`.
  * A finite sum none of whose terms is `⊤` is not `⊤`; the square of an extended real that is neither infinity is not `⊤`.
  * Multiplication by a nonnegative factor other than `⊤` distributes over any sum, so
    `(a * n + b) * q = a * (n * q) + b * q` for all extended reals `a n b`.
-/
import Mathlib.Data.EReal.Operations
import Idealize.ShloMosaic.PureOps.Ideal

noncomputable section

namespace Cert.LibExtSquares

open Idealize.ShloMosaic

/-- A square is nonnegative, at the infinities too. -/
theorem mul_self_nonneg (v : EReal) : 0 ≤ v * v := by
  induction v using EReal.rec with
  | bot => rw [EReal.bot_mul_bot]; exact le_top
  | coe r => rw [← EReal.coe_mul]; exact EReal.coe_nonneg.mpr (_root_.mul_self_nonneg r)
  | top => rw [EReal.top_mul_top]; exact le_top

/-- A finite sum of squares is nonnegative. -/
theorem sum_mul_self_nonneg {ι : Type} (s : Finset ι) (f : ι → EReal) : 0 ≤ ∑ i ∈ s, f i * f i :=
  Finset.sum_nonneg fun i _ => mul_self_nonneg (f i)

/-- The ideal square root squares back to its argument on every nonnegative extended real. -/
theorem sqrt_mul_self {u : EReal} (h : 0 ≤ u) : Ideal.sqrt u * Ideal.sqrt u = u := by
  induction u using EReal.rec with
  | bot => exact absurd h (by simp)
  | coe r =>
    have hr : 0 ≤ r := EReal.coe_nonneg.mp h
    rw [Ideal.sqrt_coe, if_neg (not_lt.mpr hr), ← EReal.coe_mul, Real.mul_self_sqrt hr]
  | top => rw [Ideal.sqrt_top, EReal.top_mul_top]

/-- The fourth power of the root, written as two squarings, is the square of the argument. -/
theorem sqrt_pow_four {u : EReal} (h : 0 ≤ u) :
    (Ideal.sqrt u * Ideal.sqrt u) * (Ideal.sqrt u * Ideal.sqrt u) = u * u := by
  rw [sqrt_mul_self h]

/-- A finite sum with no term `⊤` is not `⊤`. -/
theorem sum_ne_top {ι : Type} [DecidableEq ι] (s : Finset ι) (f : ι → EReal) (h : ∀ i ∈ s, f i ≠ ⊤) :
    ∑ i ∈ s, f i ≠ ⊤ := by
  induction s using Finset.induction_on with
  | empty => simp
  | insert a s ha ih =>
    rw [Finset.sum_insert ha]
    exact EReal.add_ne_top (h a (Finset.mem_insert_self a s)) (ih fun i hi => h i (Finset.mem_insert_of_mem hi))

/-- The square of an extended real that is neither infinity is not `⊤`. -/
theorem mul_self_ne_top {v : EReal} (ht : v ≠ ⊤) (hb : v ≠ ⊥) : v * v ≠ ⊤ := by
  induction v using EReal.rec with
  | bot => exact absurd rfl hb
  | coe r => rw [← EReal.coe_mul]; exact EReal.coe_ne_top _
  | top => exact absurd rfl ht

/-- Multiplying an affine expression `a * n + b` by a nonnegative factor other than `⊤`, term by term. -/
theorem affine_mul (a n b : EReal) {q : EReal} (hq : 0 ≤ q) (hq' : q ≠ ⊤) :
    (a * n + b) * q = a * (n * q) + b * q := by
  rw [EReal.right_distrib_of_nonneg_of_ne_top hq hq', mul_assoc]

end Cert.LibExtSquares

end
-- ==== Proof.RefValue.lean ====
/-
  The reference at an index.

  The reference takes the Euclidean norm of each row of the product by a square root and raises it to the fourth power by two
  squarings. A sum of squares is nonnegative and the ideal square root squares back to every nonnegative extended real, so the
  fourth power is the square of the sum of squares: the calibration vector is `calibVec`, and row `b` of the main product
  gives `rowSq · rowSq`. Its two coefficients are the shared `slope` and `shift` of that vector, and its result at row `b`
  is `(slope · rowSq⁴ + shift) · rowDot`.
-/
import proofs.«110886_j63453846831506_2_alg».proof.Proof.Gen.ReferenceIdeal.Read
import proofs.«110886_j63453846831506_2_alg».proof.Proof.Spec
import proofs.«110886_j63453846831506_2_alg».proof.Proof.LibExtSquares

noncomputable section

namespace Cert.ReferenceIdeal.RefValue

open Cert.ReferenceIdeal Cert.ReferenceIdeal.Gen Cert.ReferenceIdeal.Read Cert.Kinetic
open Idealize.ShloMosaic Idealize.ShloMosaic.ValueIdx

variable (x0 x1 : (⟨S32768x1024, .f32⟩ : BufTy).Contents (Elt Ideal)) (x2 : (⟨S2048x1024, .f32⟩ : BufTy).Contents (Elt Ideal))
  (x3 : (⟨S1024x1024, .f32⟩ : BufTy).Contents (Elt Ideal))

/-- The sum of squares of a calibration row of the product. -/
theorem sumsq_calib (j : S2048.Idx) : val_main_call0_v1 (F := Ideal) x2 x3 j = rowSq x2 x3 (j 0) := by
  rw [val_main_call0_v1_apply, val_main_call0_cst_apply, Ideal.ofBits_def, Ideal.ofBits_zero_f32, zero_add]
  unfold rowSq
  refine Finset.sum_congr rfl fun d _ => ?_
  rw [val_main_call0_v0_apply, val_main_v0_apply, Ideal.mulf_def]
  have h : (∑ k : Fin 1024, x2 (lidx_main_v0 (idx_main_call0_v1 j d) k) * x3 (ridx_main_v0 (idx_main_call0_v1 j d) k))
      = ∑ e : Fin 1024, x2 (ix2 (j 0) e) * x3 (ix2 e d) :=
    Finset.sum_congr rfl fun e _ => congrArg₂ (· * ·)
      (congrArg x2 (funext fun a => Fin.ext (by match a with | ⟨0, _⟩ => rfl | ⟨1, _⟩ => rfl)))
      (congrArg x3 (funext fun a => Fin.ext (by match a with | ⟨0, _⟩ => rfl | ⟨1, _⟩ => rfl)))
  rw [h]

/-- The sum of squares of row `i` of the main product. -/
theorem sumsq_main (i : S32768.Idx) : val_main_call1_v1 (F := Ideal) x0 x3 i = rowSq x0 x3 (i 0) := by
  rw [val_main_call1_v1_apply, val_main_call1_cst_apply, Ideal.ofBits_def, Ideal.ofBits_zero_f32, zero_add]
  unfold rowSq
  refine Finset.sum_congr rfl fun d _ => ?_
  rw [val_main_call1_v0_apply, val_main_v10_apply, Ideal.mulf_def]
  have h : (∑ k : Fin 1024, x0 (lidx_main_v10 (idx_main_call1_v1 i d) k) * x3 (ridx_main_v10 (idx_main_call1_v1 i d) k))
      = ∑ e : Fin 1024, x0 (ix2 (i 0) e) * x3 (ix2 e d) :=
    Finset.sum_congr rfl fun e _ => congrArg₂ (· * ·)
      (congrArg x0 (funext fun a => Fin.ext (by match a with | ⟨0, _⟩ => rfl | ⟨1, _⟩ => rfl)))
      (congrArg x3 (funext fun a => Fin.ext (by match a with | ⟨0, _⟩ => rfl | ⟨1, _⟩ => rfl)))
  rw [h]

/-- The reference's calibration vector is `calibVec`: the root's fourth power is the square of the sum of squares. -/
theorem calib_eq : val_main_v3 (F := Ideal) x2 x3 = calibVec x2 x3 := by
  funext j
  rw [val_main_v3_apply, val_main_v2_apply, val_main_v1_apply, sumsq_calib]
  simp only [Ideal.mulf_def, Ideal.hostUnary_sqrt_def]
  exact Cert.LibExtSquares.sqrt_pow_four (rowSq_nonneg x2 x3 (j 0))

/-- The fourth power of the norm of row `i` of the main product. -/
theorem pow_main (i : S32768.Idx) : val_main_v13 (F := Ideal) x0 x3 i = rowSq x0 x3 (i 0) * rowSq x0 x3 (i 0) := by
  rw [val_main_v13_apply, val_main_v12_apply, val_main_v11_apply, sumsq_main]
  simp only [Ideal.mulf_def, Ideal.hostUnary_sqrt_def]
  exact Cert.LibExtSquares.sqrt_pow_four (rowSq_nonneg x0 x3 (i 0))

/-- The squared norm of row `i` of the second operand. -/
theorem dot_main (i : S32768.Idx) : val_main_v19 (F := Ideal) x1 i = rowDot x1 (i 0) := by
  rw [val_main_v19_apply, val_main_cst_3_apply, Ideal.ofBits_def, Ideal.ofBits_zero_f32, zero_add]
  unfold rowDot
  refine Finset.sum_congr rfl fun d _ => ?_
  rw [val_main_v18_apply, Ideal.mulf_def]
  have e : idx_main_v19 i d = ix2 (i 0) d := funext fun a => Fin.ext (by match a with | ⟨0, _⟩ => rfl | ⟨1, _⟩ => rfl)
  exact congrArg₂ (· * ·) (congrArg x1 e) (congrArg x1 e)

/-- The reference's result at row `i`. -/
theorem result_apply (i : S32768.Idx) :
    val_main_v20 (F := Ideal) x0 x1 x2 x3 i
      = (slope reducesTo_S2048_S_d0 h_S_ (calibVec x2 x3) ix0 * (rowSq x0 x3 (i 0) * rowSq x0 x3 (i 0))
          + shift reducesTo_S2048_S_d0 h_S_ (calibVec x2 x3) ix0) * rowDot x1 (i 0) := by
  have h7 : val_main_v7 (F := Ideal) x2 x3 = slope reducesTo_S2048_S_d0 h_S_ (val_main_v3 (F := Ideal) x2 x3) := rfl
  have h9 : val_main_v9 (F := Ideal) x2 x3 = shift reducesTo_S2048_S_d0 h_S_ (val_main_v3 (F := Ideal) x2 x3) := rfl
  rw [val_main_v20_apply, val_main_v17_apply, val_main_v15_apply, val_main_v14_apply, val_main_v16_apply, h7, h9, calib_eq,
    pow_main, dot_main]
  rfl

end Cert.ReferenceIdeal.RefValue

end
-- ==== Proof.Finite.lean ====
/-
  From the precondition to finiteness of the second argument.

  The precondition is the conjunction, over the four arguments, of "every entry's absolute value is below `+∞`". Its
  second conjunct, read at an entry of the second argument, says `max v (-v) < ⊤`, which excludes both infinities; hence the
  squared norm of each row of that argument, a sum of squares of extended reals none of which is an infinity, is not `⊤`.
-/
import proofs.«110886_j63453846831506_2_alg».proof.Pre_finite_inputs
import proofs.«110886_j63453846831506_2_alg».proof.Proof.Gen.Pre_finite_inputs
import proofs.«110886_j63453846831506_2_alg».proof.Proof.Spec
import proofs.«110886_j63453846831506_2_alg».proof.Proof.LibExtSquares
import Idealize.ShloMosaic.Lib.ReduceAll
import Idealize.ShloMosaic.Lib.Affine
import Idealize.ShloMosaic.PureOps.Ideal.Laws

noncomputable section

namespace Cert.Kinetic.Finite

open Cert.Pre_finite_inputs Cert.Kinetic
open Idealize.ShloMosaic Idealize.ShloMosaic.ValueIdx

/-- An extended real whose absolute value compares below `+∞` is neither infinity. -/
theorem ne_inf_of_abs_lt {v : EReal}
    (h : Ideal.cmp .olt (max v (-v)) (Ideal.ofBits .f32 0x7F800000#32) = 1#1) : v ≠ ⊤ ∧ v ≠ ⊥ := by
  have htop : Ideal.ofBits .f32 0x7F800000#32 = ⊤ := by simp [Ideal.ofBits, Ideal.ieee]
  rw [htop] at h
  have h' : max v (-v) < ⊤ := by
    by_contra hn
    simp [Ideal.cmp, hn] at h
  constructor
  · rintro rfl; simp at h'
  · rintro rfl; simp at h'

instance : Subsingleton Cert.Pre_finite_inputs.S_.Idx := ⟨fun a b => funext fun d => d.elim0⟩

/-- Under the precondition every entry of the second argument is neither infinity. -/
theorem xdot_finite (a0 a1 : FVec Ideal S32768x1024 .f32) (a2 : FVec Ideal S2048x1024 .f32) (a3 : FVec Ideal S1024x1024 .f32)
    (h : fn (F := Ideal) a0 a1 a2 a3 = fun _ => 1#1) (i : S32768x1024.Idx) : a1 i ≠ ⊤ ∧ a1 i ≠ ⊥ := by
  have h0 := congrFun h ix0
  dsimp only [fn, fn_part1, andi] at h0
  obtain ⟨⟨⟨-, h1⟩, -⟩, -⟩ := (IntOp.andi_eq_one.mp h0).imp (fun h => (IntOp.andi_eq_one.mp h).imp IntOp.andi_eq_one.mp id) id
  have hi := Host.reduce_andi_all _ _ _ _ _ h1 i
  refine ne_inf_of_abs_lt ?_
  exact hi

/-- So the squared norm of each of its rows is not `⊤`. -/
theorem rowDot_ne_top (a0 a1 : FVec Ideal S32768x1024 .f32) (a2 : FVec Ideal S2048x1024 .f32) (a3 : FVec Ideal S1024x1024 .f32)
    (h : fn (F := Ideal) a0 a1 a2 a3 = fun _ => 1#1) (r : Fin 32768) : rowDot a1 r ≠ ⊤ := by
  unfold rowDot
  refine Cert.LibExtSquares.sum_ne_top _ _ fun d _ => ?_
  obtain ⟨ht, hb⟩ := xdot_finite a0 a1 a2 a3 h (ix2 r d)
  exact Cert.LibExtSquares.mul_self_ne_top ht hb

/-- and it is nonnegative, being a sum of squares. -/
theorem rowDot_nonneg {n : ℕ} (Y : (⟨2, ![n, 1024]⟩ : Shape).Idx → EReal) (r : Fin n) : 0 ≤ rowDot Y r := by
  unfold rowDot
  exact Cert.LibExtSquares.sum_mul_self_nonneg _ _

end Cert.Kinetic.Finite

end
-- ==== Proof.lean ====
/-
  A kinetic-energy kernel against its reference, on the extended reals.

  With `s(x) = x · W`, both programs compute, for every row `b`,
      `(α · ‖s(x_b)‖⁴ + β) · ‖ẋ_b‖²`,
  where `α = c₁ / (max − min)` and `β = c₂ − α · min` are formed from the maximum and minimum over the calibration rows `p` of
  `‖s(pos_p)‖⁴`.
  The kernel takes the fourth power as the square of the sum of squares, in two launches: a one-point launch for the
  calibration rows, and a 16-point launch that walks each 2048-row block in 16 chunks of 128 rows and writes
  `A_b = ‖s(x_b)‖⁴ · ‖ẋ_b‖²` and `B_b = ‖ẋ_b‖²`; the host then forms `α · A + β · B`.
  The reference takes the norm by a square root and raises it to the fourth power by two squarings, and forms
  `(α · ‖s(x_b)‖⁴ + β) · ‖ẋ_b‖²`.

  Three facts join them. A change of float format is the identity and every sum is the exact sum, so both products are the
  same sums over the contracted coordinate. A sum of squares `u` is nonnegative and `√u · √u = u` for every nonnegative
  extended real, `⊤` included, so `(√u)⁴ = u · u`: the two calibration vectors are one vector, and `α`, `β` — the same host
  operations on the same literals applied to it — are equal without being opened. Finally
  `(α · n + β) · q = α · (n · q) + β · q` holds for all extended reals `α n β` once `0 ≤ q ≠ ⊤`; `q = ‖ẋ_b‖²` is a sum of
  squares, and it is not `⊤` because the precondition makes every entry of `ẋ` finite. That is the only use of the
  precondition.
-/
import proofs.«110886_j63453846831506_2_alg».proof.Defs
import proofs.«110886_j63453846831506_2_alg».proof.Proof.Gen.Kernel
import proofs.«110886_j63453846831506_2_alg».proof.Proof.Gen.Kernel.Skeleton
import proofs.«110886_j63453846831506_2_alg».proof.Proof.Gen.Kernel.Loops
import proofs.«110886_j63453846831506_2_alg».proof.Proof.Gen.Kernel.Launch
import proofs.«110886_j63453846831506_2_alg».proof.Proof.Gen.Kernel.Points
import proofs.«110886_j63453846831506_2_alg».proof.Proof.Gen.Kernel.Frame
import proofs.«110886_j63453846831506_2_alg».proof.Proof.Gen.KernelIdeal
import proofs.«110886_j63453846831506_2_alg».proof.Proof.Gen.KernelIdeal.Skeleton
import proofs.«110886_j63453846831506_2_alg».proof.Proof.Gen.KernelIdeal.Loops
import proofs.«110886_j63453846831506_2_alg».proof.Proof.Gen.KernelIdeal.Launch
import proofs.«110886_j63453846831506_2_alg».proof.Proof.Gen.KernelIdeal.Points
import proofs.«110886_j63453846831506_2_alg».proof.Proof.Gen.KernelIdeal.Frame
import proofs.«110886_j63453846831506_2_alg».proof.Proof.Gen.ReferenceIdeal
import proofs.«110886_j63453846831506_2_alg».proof.Proof.Gen.ReferenceIdeal.Run
import proofs.«110886_j63453846831506_2_alg».proof.Proof.Gen.ReferenceIdeal.Read
import proofs.«110886_j63453846831506_2_alg».proof.Proof.Gen.Pre_finite_inputs
import proofs.«110886_j63453846831506_2_alg».proof.Proof.KernelRun
import proofs.«110886_j63453846831506_2_alg».proof.Proof.Tail
import proofs.«110886_j63453846831506_2_alg».proof.Proof.RefValue
import proofs.«110886_j63453846831506_2_alg».proof.Proof.Finite
import Idealize.ShloMosaic.Adequacy
import Idealize.ShloMosaic.Init

noncomputable section

namespace Cert.Proof

open Idealize.ShloMosaic Idealize.ShloMosaic.TcCoe Idealize.SL.Sem Cert.Kinetic

/-- The printed kernel terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result, row by row. -/
theorem algebraic : Cert.algebraic_KernelIdeal_ReferenceIdeal := by
  intro m ρ m' ρ' hpre hagree
  refine ⟨fun c => Cert.KernelIdeal.Gen.W5 m ρ c (Proc.devRef .tc Cert.KernelIdeal.main_v13), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  funext i
  refine (Cert.ReferenceIdeal.RefValue.result_apply _ _ _ _ i).trans ?_
  refine Eq.trans ?_ (Cert.KernelIdeal.Tail.result_apply m ρ c i).symm
  unfold rowProd
  exact Cert.LibExtSquares.affine_mul _ _ _ (Cert.Kinetic.Finite.rowDot_nonneg _ _)
    (Cert.Kinetic.Finite.rowDot_ne_top _ _ _ _ (hpre c) _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
